-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512x2 : Shape := ⟨4, ![8, 512, 512, 2]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x16x512x512 .f32) (main_arg1 : FVec F S8x512x512x2 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x16x512x512 : Shape := ⟨4, ![8, 16, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S2097152 : Shape := ⟨1, ![2097152]⟩
abbrev S8 : Shape := ⟨1, ![8]⟩
abbrev S8x262144 : Shape := ⟨2, ![8, 262144]⟩
abbrev S2121800 : Shape := ⟨1, ![2121800]⟩
abbrev S2097152x1 : Shape := ⟨2, ![2097152, 1]⟩
abbrev S8x515x515 : Shape := ⟨3, ![8, 515, 515]⟩
abbrev S8x1x512x512 : Shape := ⟨4, ![8, 1, 512, 512]⟩
abbrev S1x1x512x512 : Shape := ⟨4, ![1, 1, 512, 512]⟩

abbrev nBuf : Space → Nat
  | .hbm => 221
  | .vmem => 4
  | .smem => 0
  | _ => 0

abbrev hbmTy0_0 (i : Nat) : BufTy := match i % 128 with
  | 0 => ⟨S8x16x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S2097152, .f32⟩
  | 25 => ⟨S8x512x512x1, .f32⟩
  | 26 => ⟨S8x512x512, .f32⟩
  | 27 => ⟨S_, .f32⟩
  | 28 => ⟨S8x512x512, .f32⟩
  | 29 => ⟨S8x512x512, .f32⟩
  | 30 => ⟨S_, .f32⟩
  | 31 => ⟨S8x512x512, .f32⟩
  | 32 => ⟨S8x512x512, .f32⟩
  | 33 => ⟨S_, .f32⟩
  | 34 => ⟨S_, .f32⟩
  | 35 => ⟨S_, .f32⟩
  | 36 => ⟨S8x512x512, .f32⟩
  | 37 => ⟨S8x512x512, .f32⟩
  | 38 => ⟨S_, .f32⟩
  | 39 => ⟨S8x512x512, .f32⟩
  | 40 => ⟨S8x512x512, .f32⟩
  | 41 => ⟨S2097152, .f32⟩
  | 42 => ⟨S2097152, .i32⟩
  | 43 => ⟨S2097152, .i32⟩
  | 44 => ⟨S8, .i32⟩
  | 45 => ⟨S8x262144, .i32⟩
  | 46 => ⟨S2097152, .i32⟩
  | 47 => ⟨S_, .f32⟩
  | 48 => ⟨S2121800, .f32⟩
  | 49 => ⟨S_, .i32⟩
  | 50 => ⟨S2097152, .i32⟩
  | 51 => ⟨S2097152, .i32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S_, .f32⟩
  | 59 => ⟨S2097152, .f32⟩
  | 60 => ⟨S2097152, .f32⟩
  | 61 => ⟨S_, .i32⟩
  | 62 => ⟨S2097152, .i32⟩
  | 63 => ⟨S2097152, .i32⟩
  | 64 => ⟨S2097152, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S2097152, .i32⟩
  | 80 => ⟨S_, .i32⟩
  | 81 => ⟨S2097152, .i32⟩
  | 82 => ⟨S2097152, .i32⟩
  | 83 => ⟨S_, .i32⟩
  | 84 => ⟨S2097152, .i32⟩
  | 85 => ⟨S2097152, .i32⟩
  | 86 => ⟨S2097152, .i32⟩
  | 87 => ⟨S2097152, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S2097152x1, .i32⟩
  | 96 => ⟨S2121800, .f32⟩
  | 97 => ⟨S_, .i32⟩
  | 98 => ⟨S2097152, .i32⟩
  | 99 => ⟨S2097152, .i32⟩
  | 100 => ⟨S2097152, .f32⟩
  | 101 => ⟨S2097152, .f32⟩
  | 102 => ⟨S2097152, .f32⟩
  | 103 => ⟨S_, .f32⟩
  | 104 => ⟨S2097152, .f32⟩
  | 105 => ⟨S2097152, .f32⟩
  | 106 => ⟨S_, .f32⟩
  | 107 => ⟨S2097152, .f32⟩
  | 108 => ⟨S2097152, .f32⟩
  | 109 => ⟨S_, .i32⟩
  | 110 => ⟨S2097152, .i32⟩
  | 111 => ⟨S2097152, .i32⟩
  | 112 => ⟨S_, .i32⟩
  | 113 => ⟨S2097152, .i32⟩
  | 114 => ⟨S2097152, .i32⟩
  | 115 => ⟨S2097152, .i32⟩
  | 116 => ⟨S_, .i32⟩
  | 117 => ⟨S2097152, .i32⟩
  | 118 => ⟨S2097152, .i32⟩
  | 119 => ⟨S_, .i32⟩
  | 120 => ⟨S2097152, .i32⟩
  | 121 => ⟨S2097152, .i32⟩
  | 122 => ⟨S2097152, .i32⟩
  | 123 => ⟨S2097152, .f32⟩
  | 124 => ⟨S_, .i32⟩
  | 125 => ⟨S2097152, .i32⟩
  | 126 => ⟨S2097152, .i1⟩
  | 127 => ⟨S_, .i32⟩
  | _ => ⟨S8x16x512x512, .f32⟩

abbrev hbmTy0_1 (i : Nat) : BufTy := match i % 128 with
  | 0 => ⟨S2097152, .i32⟩
  | 1 => ⟨S2097152, .i32⟩
  | 2 => ⟨S2097152, .i32⟩
  | 3 => ⟨S2097152x1, .i32⟩
  | 4 => ⟨S2121800, .f32⟩
  | 5 => ⟨S_, .i32⟩
  | 6 => ⟨S2097152, .i32⟩
  | 7 => ⟨S2097152, .i32⟩
  | 8 => ⟨S2097152, .f32⟩
  | 9 => ⟨S2097152, .f32⟩
  | 10 => ⟨S2097152, .f32⟩
  | 11 => ⟨S_, .f32⟩
  | 12 => ⟨S2097152, .f32⟩
  | 13 => ⟨S2097152, .f32⟩
  | 14 => ⟨S_, .f32⟩
  | 15 => ⟨S2097152, .f32⟩
  | 16 => ⟨S2097152, .f32⟩
  | 17 => ⟨S_, .i32⟩
  | 18 => ⟨S2097152, .i32⟩
  | 19 => ⟨S2097152, .i32⟩
  | 20 => ⟨S2097152, .f32⟩
  | 21 => ⟨S2097152, .f32⟩
  | 22 => ⟨S2097152, .f32⟩
  | 23 => ⟨S_, .f32⟩
  | 24 => ⟨S2097152, .f32⟩
  | 25 => ⟨S2097152, .f32⟩
  | 26 => ⟨S_, .f32⟩
  | 27 => ⟨S2097152, .f32⟩
  | 28 => ⟨S2097152, .f32⟩
  | 29 => ⟨S_, .i32⟩
  | 30 => ⟨S2097152, .i32⟩
  | 31 => ⟨S2097152, .i32⟩
  | 32 => ⟨S_, .i32⟩
  | 33 => ⟨S2097152, .i32⟩
  | 34 => ⟨S2097152, .i32⟩
  | 35 => ⟨S2097152, .i32⟩
  | 36 => ⟨S_, .i32⟩
  | 37 => ⟨S2097152, .i32⟩
  | 38 => ⟨S2097152, .i32⟩
  | 39 => ⟨S_, .i32⟩
  | 40 => ⟨S2097152, .i32⟩
  | 41 => ⟨S2097152, .i32⟩
  | 42 => ⟨S2097152, .i32⟩
  | 43 => ⟨S2097152, .f32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2121800, .f32⟩
  | 53 => ⟨S_, .i32⟩
  | 54 => ⟨S2097152, .i32⟩
  | 55 => ⟨S2097152, .i32⟩
  | 56 => ⟨S2097152, .f32⟩
  | 57 => ⟨S2097152, .f32⟩
  | 58 => ⟨S2097152, .f32⟩
  | 59 => ⟨S_, .f32⟩
  | 60 => ⟨S2097152, .f32⟩
  | 61 => ⟨S2097152, .f32⟩
  | 62 => ⟨S_, .f32⟩
  | 63 => ⟨S2097152, .f32⟩
  | 64 => ⟨S2097152, .f32⟩
  | 65 => ⟨S_, .i32⟩
  | 66 => ⟨S2097152, .i32⟩
  | 67 => ⟨S2097152, .i32⟩
  | 68 => ⟨S_, .i32⟩
  | 69 => ⟨S2097152, .i32⟩
  | 70 => ⟨S2097152, .i32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S2097152, .i32⟩
  | 79 => ⟨S2097152, .f32⟩
  | 80 => ⟨S_, .i32⟩
  | 81 => ⟨S2097152, .i32⟩
  | 82 => ⟨S2097152, .i1⟩
  | 83 => ⟨S_, .i32⟩
  | 84 => ⟨S2097152, .i32⟩
  | 85 => ⟨S2097152, .i32⟩
  | 86 => ⟨S2097152, .i32⟩
  | 87 => ⟨S2097152x1, .i32⟩
  | 88 => ⟨S2121800, .f32⟩
  | 89 => ⟨S8x515x515, .f32⟩
  | 90 => ⟨S8x512x512, .f32⟩
  | 91 => ⟨S8x1x512x512, .f32⟩
  | 92 => ⟨S8x16x512x512, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_cst_8 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_call3_cst : Ref sig .tc := ⟨.hbm, 70, rfl⟩
abbrev main_call3_v0 : Ref sig .tc := ⟨.hbm, 71, rfl⟩
abbrev main_v41 : Ref sig .tc := ⟨.hbm, 72, rfl⟩
abbrev main_c_13 : Ref sig .tc := ⟨.hbm, 73, rfl⟩
abbrev main_v42 : Ref sig .tc := ⟨.hbm, 74, rfl⟩
abbrev main_v43 : Ref sig .tc := ⟨.hbm, 75, rfl⟩
abbrev main_c_14 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_c_16 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_v54 : Ref sig .tc := ⟨.hbm, 90, rfl⟩
abbrev main_c_18 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_19 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_20 : Ref sig .tc := ⟨.hbm, 103, rfl⟩
abbrev main_v65 : Ref sig .tc := ⟨.hbm, 104, rfl⟩
abbrev main_v66 : Ref sig .tc := ⟨.hbm, 105, rfl⟩
abbrev main_call4_cst : Ref sig .tc := ⟨.hbm, 106, rfl⟩
abbrev main_call4_v0 : Ref sig .tc := ⟨.hbm, 107, rfl⟩
abbrev main_v67 : Ref sig .tc := ⟨.hbm, 108, rfl⟩
abbrev main_c_21 : Ref sig .tc := ⟨.hbm, 109, rfl⟩
abbrev main_v68 : Ref sig .tc := ⟨.hbm, 110, rfl⟩
abbrev main_v69 : Ref sig .tc := ⟨.hbm, 111, rfl⟩
abbrev main_c_22 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_23 : Ref sig .tc := ⟨.hbm, 116, rfl⟩
abbrev main_v73 : Ref sig .tc := ⟨.hbm, 117, rfl⟩
abbrev main_v74 : Ref sig .tc := ⟨.hbm, 118, rfl⟩
abbrev main_c_24 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_27 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_28 : Ref sig .tc := ⟨.hbm, 139, rfl⟩
abbrev main_v91 : Ref sig .tc := ⟨.hbm, 140, rfl⟩
abbrev main_v92 : Ref sig .tc := ⟨.hbm, 141, rfl⟩
abbrev main_call5_cst : Ref sig .tc := ⟨.hbm, 142, rfl⟩
abbrev main_call5_v0 : Ref sig .tc := ⟨.hbm, 143, rfl⟩
abbrev main_v93 : Ref sig .tc := ⟨.hbm, 144, rfl⟩
abbrev main_c_29 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_30 : Ref sig .tc := ⟨.hbm, 151, rfl⟩
abbrev main_v99 : Ref sig .tc := ⟨.hbm, 152, rfl⟩
abbrev main_v100 : Ref sig .tc := ⟨.hbm, 153, rfl⟩
abbrev main_call6_cst : Ref sig .tc := ⟨.hbm, 154, rfl⟩
abbrev main_call6_v0 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_c_32 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_35 : Ref sig .tc := ⟨.hbm, 172, rfl⟩
abbrev main_v113 : Ref sig .tc := ⟨.hbm, 173, rfl⟩
abbrev main_v114 : Ref sig .tc := ⟨.hbm, 174, rfl⟩
abbrev main_c_36 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_37 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_38 : Ref sig .tc := ⟨.hbm, 187, rfl⟩
abbrev main_v125 : Ref sig .tc := ⟨.hbm, 188, rfl⟩
abbrev main_v126 : Ref sig .tc := ⟨.hbm, 189, rfl⟩
abbrev main_call7_cst : Ref sig .tc := ⟨.hbm, 190, rfl⟩
abbrev main_call7_v0 : Ref sig .tc := ⟨.hbm, 191, rfl⟩
abbrev main_v127 : Ref sig .tc := ⟨.hbm, 192, rfl⟩
abbrev main_c_39 : Ref sig .tc := ⟨.hbm, 193, rfl⟩
abbrev main_v128 : Ref sig .tc := ⟨.hbm, 194, rfl⟩
abbrev main_v129 : Ref sig .tc := ⟨.hbm, 195, rfl⟩
abbrev main_c_40 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_41 : Ref sig .tc := ⟨.hbm, 200, rfl⟩
abbrev main_v133 : Ref sig .tc := ⟨.hbm, 201, rfl⟩
abbrev main_v134 : Ref sig .tc := ⟨.hbm, 202, rfl⟩
abbrev main_c_42 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_c_43 : Ref sig .tc := ⟨.hbm, 208, rfl⟩
abbrev main_v139 : Ref sig .tc := ⟨.hbm, 209, rfl⟩
abbrev main_v140 : Ref sig .tc := ⟨.hbm, 210, rfl⟩
abbrev main_c_44 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  shapeCasts_S8x512x512_S2097152 : S8x512x512.ShapeCasts S2097152
  slices_S8x512x512x2_S8x512x512x1_0_0_0_1 : S8x512x512x2.Slices ![0, 0, 0, 1] S8x512x512x1
  bcast_S8_S8x262144_0 : S8.BroadcastsInDim S8x262144 (![0] : Fin 1 → Fin S8x262144.rank)
  shapeCasts_S8x262144_S2097152 : S8x262144.ShapeCasts S2097152
  bcast_S_S2121800 : S_.BroadcastsInDim S2121800 (![] : Fin 0 → Fin S2121800.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2121800_S8x515x515 : S2121800.ShapeCasts S8x515x515
  slices_S8x515x515_S8x512x512_0_1_1 : S8x515x515.Slices ![0, 1, 1] S8x512x512
  shapeCasts_S8x512x512_S8x1x512x512 : S8x512x512.ShapeCasts S8x1x512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x1x512x512 : S1x1x512x512.ShapeCasts S1x1x512x512
  scatter_S2121800_S2097152x1_S2097152_n_0_0_1_wf : ScatterDims.WF S2121800 S2097152x1 S2097152 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x1x512x512.size a
  hwx0_0 : ∀ i : grid0.Coords, EltTy.bits .f32 = 32 ∨ (Rect.block (s := S8x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x16x512x512.size a
  hwx0_1 : ∀ i : grid0.Coords, EltTy.bits .f32 = 32 ∨ (Rect.block (s := S8x16x512x512) S1x1x512x512.size (cc0_transform_1 i) (hinb0_1 i)).WholeWords (EltTy.packing .f32)

variable [Facts₀]

def scatter_S2121800_S2097152x1_S2097152_n_0_0_1 : ScatterDims S2121800 S2097152x1 S2097152 where
  updateWindowDims := []
  insertedWindowDims := [0]
  scatterDimsToOperandDims := [0]
  indexVectorDim := 1
  wf := scatter_S2121800_S2097152x1_S2097152_n_0_0_1_wf

abbrev win0_0 : Pipeline.Window sig grid0 :=
  Pipeline.Window.ofSpec (Memref.whole main_v148) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v149) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S2097152 : Shape := ⟨1, ![2097152]⟩
abbrev S8 : Shape := ⟨1, ![8]⟩
abbrev S8x262144 : Shape := ⟨2, ![8, 262144]⟩
abbrev S2121800 : Shape := ⟨1, ![2121800]⟩
abbrev S2097152x1 : Shape := ⟨2, ![2097152, 1]⟩
abbrev S8x515x515 : Shape := ⟨3, ![8, 515, 515]⟩
abbrev S8x1x512x512 : Shape := ⟨4, ![8, 1, 512, 512]⟩

abbrev nBuf : Space → Nat
  | .hbm => 221
  | .vmem => 0
  | .smem => 0
  | _ => 0

abbrev hbmTy0_0 (i : Nat) : BufTy := match i % 128 with
  | 0 => ⟨S8x16x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S2097152, .f32⟩
  | 25 => ⟨S8x512x512x1, .f32⟩
  | 26 => ⟨S8x512x512, .f32⟩
  | 27 => ⟨S_, .f32⟩
  | 28 => ⟨S8x512x512, .f32⟩
  | 29 => ⟨S8x512x512, .f32⟩
  | 30 => ⟨S_, .f32⟩
  | 31 => ⟨S8x512x512, .f32⟩
  | 32 => ⟨S8x512x512, .f32⟩
  | 33 => ⟨S_, .f32⟩
  | 34 => ⟨S_, .f32⟩
  | 35 => ⟨S_, .f32⟩
  | 36 => ⟨S8x512x512, .f32⟩
  | 37 => ⟨S8x512x512, .f32⟩
  | 38 => ⟨S_, .f32⟩
  | 39 => ⟨S8x512x512, .f32⟩
  | 40 => ⟨S8x512x512, .f32⟩
  | 41 => ⟨S2097152, .f32⟩
  | 42 => ⟨S2097152, .i32⟩
  | 43 => ⟨S2097152, .i32⟩
  | 44 => ⟨S8, .i32⟩
  | 45 => ⟨S8x262144, .i32⟩
  | 46 => ⟨S2097152, .i32⟩
  | 47 => ⟨S_, .f32⟩
  | 48 => ⟨S2121800, .f32⟩
  | 49 => ⟨S_, .i32⟩
  | 50 => ⟨S2097152, .i32⟩
  | 51 => ⟨S2097152, .i32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S_, .f32⟩
  | 59 => ⟨S2097152, .f32⟩
  | 60 => ⟨S2097152, .f32⟩
  | 61 => ⟨S_, .i32⟩
  | 62 => ⟨S2097152, .i32⟩
  | 63 => ⟨S2097152, .i32⟩
  | 64 => ⟨S2097152, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S_, .f32⟩
  | 71 => ⟨S2097152, .f32⟩
  | 72 => ⟨S2097152, .f32⟩
  | 73 => ⟨S_, .i32⟩
  | 74 => ⟨S2097152, .i32⟩
  | 75 => ⟨S2097152, .i32⟩
  | 76 => ⟨S_, .i32⟩
  | 77 => ⟨S2097152, .i32⟩
  | 78 => ⟨S2097152, .i32⟩
  | 79 => ⟨S2097152, .i32⟩
  | 80 => ⟨S_, .i32⟩
  | 81 => ⟨S2097152, .i32⟩
  | 82 => ⟨S2097152, .i32⟩
  | 83 => ⟨S_, .i32⟩
  | 84 => ⟨S2097152, .i32⟩
  | 85 => ⟨S2097152, .i32⟩
  | 86 => ⟨S2097152, .i32⟩
  | 87 => ⟨S2097152, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S2097152x1, .i32⟩
  | 96 => ⟨S2121800, .f32⟩
  | 97 => ⟨S_, .i32⟩
  | 98 => ⟨S2097152, .i32⟩
  | 99 => ⟨S2097152, .i32⟩
  | 100 => ⟨S2097152, .f32⟩
  | 101 => ⟨S2097152, .f32⟩
  | 102 => ⟨S2097152, .f32⟩
  | 103 => ⟨S_, .f32⟩
  | 104 => ⟨S2097152, .f32⟩
  | 105 => ⟨S2097152, .f32⟩
  | 106 => ⟨S_, .f32⟩
  | 107 => ⟨S2097152, .f32⟩
  | 108 => ⟨S2097152, .f32⟩
  | 109 => ⟨S_, .i32⟩
  | 110 => ⟨S2097152, .i32⟩
  | 111 => ⟨S2097152, .i32⟩
  | 112 => ⟨S_, .i32⟩
  | 113 => ⟨S2097152, .i32⟩
  | 114 => ⟨S2097152, .i32⟩
  | 115 => ⟨S2097152, .i32⟩
  | 116 => ⟨S_, .i32⟩
  | 117 => ⟨S2097152, .i32⟩
  | 118 => ⟨S2097152, .i32⟩
  | 119 => ⟨S_, .i32⟩
  | 120 => ⟨S2097152, .i32⟩
  | 121 => ⟨S2097152, .i32⟩
  | 122 => ⟨S2097152, .i32⟩
  | 123 => ⟨S2097152, .f32⟩
  | 124 => ⟨S_, .i32⟩
  | 125 => ⟨S2097152, .i32⟩
  | 126 => ⟨S2097152, .i1⟩
  | 127 => ⟨S_, .i32⟩
  | _ => ⟨S8x16x512x512, .f32⟩

abbrev hbmTy0_1 (i : Nat) : BufTy := match i % 128 with
  | 0 => ⟨S2097152, .i32⟩
  | 1 => ⟨S2097152, .i32⟩
  | 2 => ⟨S2097152, .i32⟩
  | 3 => ⟨S2097152x1, .i32⟩
  | 4 => ⟨S2121800, .f32⟩
  | 5 => ⟨S_, .i32⟩
  | 6 => ⟨S2097152, .i32⟩
  | 7 => ⟨S2097152, .i32⟩
  | 8 => ⟨S2097152, .f32⟩
  | 9 => ⟨S2097152, .f32⟩
  | 10 => ⟨S2097152, .f32⟩
  | 11 => ⟨S_, .f32⟩
  | 12 => ⟨S2097152, .f32⟩
  | 13 => ⟨S2097152, .f32⟩
  | 14 => ⟨S_, .f32⟩
  | 15 => ⟨S2097152, .f32⟩
  | 16 => ⟨S2097152, .f32⟩
  | 17 => ⟨S_, .i32⟩
  | 18 => ⟨S2097152, .i32⟩
  | 19 => ⟨S2097152, .i32⟩
  | 20 => ⟨S2097152, .f32⟩
  | 21 => ⟨S2097152, .f32⟩
  | 22 => ⟨S2097152, .f32⟩
  | 23 => ⟨S_, .f32⟩
  | 24 => ⟨S2097152, .f32⟩
  | 25 => ⟨S2097152, .f32⟩
  | 26 => ⟨S_, .f32⟩
  | 27 => ⟨S2097152, .f32⟩
  | 28 => ⟨S2097152, .f32⟩
  | 29 => ⟨S_, .i32⟩
  | 30 => ⟨S2097152, .i32⟩
  | 31 => ⟨S2097152, .i32⟩
  | 32 => ⟨S_, .i32⟩
  | 33 => ⟨S2097152, .i32⟩
  | 34 => ⟨S2097152, .i32⟩
  | 35 => ⟨S2097152, .i32⟩
  | 36 => ⟨S_, .i32⟩
  | 37 => ⟨S2097152, .i32⟩
  | 38 => ⟨S2097152, .i32⟩
  | 39 => ⟨S_, .i32⟩
  | 40 => ⟨S2097152, .i32⟩
  | 41 => ⟨S2097152, .i32⟩
  | 42 => ⟨S2097152, .i32⟩
  | 43 => ⟨S2097152, .f32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2121800, .f32⟩
  | 53 => ⟨S_, .i32⟩
  | 54 => ⟨S2097152, .i32⟩
  | 55 => ⟨S2097152, .i32⟩
  | 56 => ⟨S2097152, .f32⟩
  | 57 => ⟨S2097152, .f32⟩
  | 58 => ⟨S2097152, .f32⟩
  | 59 => ⟨S_, .f32⟩
  | 60 => ⟨S2097152, .f32⟩
  | 61 => ⟨S2097152, .f32⟩
  | 62 => ⟨S_, .f32⟩
  | 63 => ⟨S2097152, .f32⟩
  | 64 => ⟨S2097152, .f32⟩
  | 65 => ⟨S_, .i32⟩
  | 66 => ⟨S2097152, .i32⟩
  | 67 => ⟨S2097152, .i32⟩
  | 68 => ⟨S_, .i32⟩
  | 69 => ⟨S2097152, .i32⟩
  | 70 => ⟨S2097152, .i32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S2097152, .i32⟩
  | 79 => ⟨S2097152, .f32⟩
  | 80 => ⟨S_, .i32⟩
  | 81 => ⟨S2097152, .i32⟩
  | 82 => ⟨S2097152, .i1⟩
  | 83 => ⟨S_, .i32⟩
  | 84 => ⟨S2097152, .i32⟩
  | 85 => ⟨S2097152, .i32⟩
  | 86 => ⟨S2097152, .i32⟩
  | 87 => ⟨S2097152x1, .i32⟩
  | 88 => ⟨S2121800, .f32⟩
  | 89 => ⟨S8x515x515, .f32⟩
  | 90 => ⟨S8x512x512, .f32⟩
  | 91 => ⟨S8x1x512x512, .f32⟩
  | 92 => ⟨S8x16x512x512, .f32⟩
  | _ => ⟨S8x16x512x512, .f32⟩

abbrev hbmTy (i : Nat) : BufTy := match i / 128 with
  | 0 => hbmTy0_0 i
  | 1 => hbmTy0_1 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_cst_8 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_call3_cst : Ref sig .tc := ⟨.hbm, 70, rfl⟩
abbrev main_call3_v0 : Ref sig .tc := ⟨.hbm, 71, rfl⟩
abbrev main_v41 : Ref sig .tc := ⟨.hbm, 72, rfl⟩
abbrev main_c_13 : Ref sig .tc := ⟨.hbm, 73, rfl⟩
abbrev main_v42 : Ref sig .tc := ⟨.hbm, 74, rfl⟩
abbrev main_v43 : Ref sig .tc := ⟨.hbm, 75, rfl⟩
abbrev main_c_14 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_15 : Ref sig .tc := ⟨.hbm, 80, rfl⟩
abbrev main_v47 : Ref sig .tc := ⟨.hbm, 81, rfl⟩
abbrev main_v48 : Ref sig .tc := ⟨.hbm, 82, rfl⟩
abbrev main_c_16 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_v54 : Ref sig .tc := ⟨.hbm, 90, rfl⟩
abbrev main_c_18 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_19 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_20 : Ref sig .tc := ⟨.hbm, 103, rfl⟩
abbrev main_v65 : Ref sig .tc := ⟨.hbm, 104, rfl⟩
abbrev main_v66 : Ref sig .tc := ⟨.hbm, 105, rfl⟩
abbrev main_call4_cst : Ref sig .tc := ⟨.hbm, 106, rfl⟩
abbrev main_call4_v0 : Ref sig .tc := ⟨.hbm, 107, rfl⟩
abbrev main_v67 : Ref sig .tc := ⟨.hbm, 108, rfl⟩
abbrev main_c_21 : Ref sig .tc := ⟨.hbm, 109, rfl⟩
abbrev main_v68 : Ref sig .tc := ⟨.hbm, 110, rfl⟩
abbrev main_v69 : Ref sig .tc := ⟨.hbm, 111, rfl⟩
abbrev main_c_22 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_23 : Ref sig .tc := ⟨.hbm, 116, rfl⟩
abbrev main_v73 : Ref sig .tc := ⟨.hbm, 117, rfl⟩
abbrev main_v74 : Ref sig .tc := ⟨.hbm, 118, rfl⟩
abbrev main_c_24 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_27 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_28 : Ref sig .tc := ⟨.hbm, 139, rfl⟩
abbrev main_v91 : Ref sig .tc := ⟨.hbm, 140, rfl⟩
abbrev main_v92 : Ref sig .tc := ⟨.hbm, 141, rfl⟩
abbrev main_call5_cst : Ref sig .tc := ⟨.hbm, 142, rfl⟩
abbrev main_call5_v0 : Ref sig .tc := ⟨.hbm, 143, rfl⟩
abbrev main_v93 : Ref sig .tc := ⟨.hbm, 144, rfl⟩
abbrev main_c_29 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_30 : Ref sig .tc := ⟨.hbm, 151, rfl⟩
abbrev main_v99 : Ref sig .tc := ⟨.hbm, 152, rfl⟩
abbrev main_v100 : Ref sig .tc := ⟨.hbm, 153, rfl⟩
abbrev main_call6_cst : Ref sig .tc := ⟨.hbm, 154, rfl⟩
abbrev main_call6_v0 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_c_32 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_33 : Ref sig .tc := ⟨.hbm, 164, rfl⟩
abbrev main_v107 : Ref sig .tc := ⟨.hbm, 165, rfl⟩
abbrev main_v108 : Ref sig .tc := ⟨.hbm, 166, rfl⟩
abbrev main_c_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_35 : Ref sig .tc := ⟨.hbm, 172, rfl⟩
abbrev main_v113 : Ref sig .tc := ⟨.hbm, 173, rfl⟩
abbrev main_v114 : Ref sig .tc := ⟨.hbm, 174, rfl⟩
abbrev main_c_36 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_37 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_38 : Ref sig .tc := ⟨.hbm, 187, rfl⟩
abbrev main_v125 : Ref sig .tc := ⟨.hbm, 188, rfl⟩
abbrev main_v126 : Ref sig .tc := ⟨.hbm, 189, rfl⟩
abbrev main_call7_cst : Ref sig .tc := ⟨.hbm, 190, rfl⟩
abbrev main_call7_v0 : Ref sig .tc := ⟨.hbm, 191, rfl⟩
abbrev main_v127 : Ref sig .tc := ⟨.hbm, 192, rfl⟩
abbrev main_c_39 : Ref sig .tc := ⟨.hbm, 193, rfl⟩
abbrev main_v128 : Ref sig .tc := ⟨.hbm, 194, rfl⟩
abbrev main_v129 : Ref sig .tc := ⟨.hbm, 195, rfl⟩
abbrev main_c_40 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_c_41 : Ref sig .tc := ⟨.hbm, 200, rfl⟩
abbrev main_v133 : Ref sig .tc := ⟨.hbm, 201, rfl⟩
abbrev main_v134 : Ref sig .tc := ⟨.hbm, 202, rfl⟩
abbrev main_c_42 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_c_43 : Ref sig .tc := ⟨.hbm, 208, rfl⟩
abbrev main_v139 : Ref sig .tc := ⟨.hbm, 209, rfl⟩
abbrev main_v140 : Ref sig .tc := ⟨.hbm, 210, rfl⟩
abbrev main_c_44 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩

abbrev nD : Nat := 1
abbrev τ : Topo := Topo.v7x

variable {F : FTy → Type} [FloatOps F]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  shapeCasts_S8x512x512_S2097152 : S8x512x512.ShapeCasts S2097152
  slices_S8x512x512x2_S8x512x512x1_0_0_0_1 : S8x512x512x2.Slices ![0, 0, 0, 1] S8x512x512x1
  bcast_S8_S8x262144_0 : S8.BroadcastsInDim S8x262144 (![0] : Fin 1 → Fin S8x262144.rank)
  shapeCasts_S8x262144_S2097152 : S8x262144.ShapeCasts S2097152
  bcast_S_S2121800 : S_.BroadcastsInDim S2121800 (![] : Fin 0 → Fin S2121800.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2121800_S8x515x515 : S2121800.ShapeCasts S8x515x515
  slices_S8x515x515_S8x512x512_0_1_1 : S8x515x515.Slices ![0, 1, 1] S8x512x512
  bcast_S8x512x512_S8x1x512x512_0_2_3 : S8x512x512.BroadcastsInDim S8x1x512x512 (![0, 2, 3] : Fin 3 → Fin S8x1x512x512.rank)
  bcast_S8x1x512x512_S8x16x512x512_0_1_2_3 : S8x1x512x512.BroadcastsInDim S8x16x512x512 (![0, 1, 2, 3] : Fin 4 → Fin S8x16x512x512.rank)
  scatter_S2121800_S2097152x1_S2097152_n_0_0_1_wf : ScatterDims.WF S2121800 S2097152x1 S2097152 [] [0] [0] 1

variable [Facts₀]

def scatter_S2121800_S2097152x1_S2097152_n_0_0_1 : ScatterDims S2121800 S2097152x1 S2097152 where
  updateWindowDims := []
  insertedWindowDims := [0]
  scatterDimsToOperandDims := [0]
  indexVectorDim := 1
  wf := scatter_S2121800_S2097152x1_S2097152_n_0_0_1_wf

class Facts : Prop extends Facts₀ where

variable [Facts]
-- ==== Proof.Channels.lean ====
/-
  Two ways of repeating a rank-3 array `B : [8, 512, 512]` along a channel axis, each read at an index.

  * Broadcasting `B` to `[8, 1, 512, 512]` along the axes (0, 2, 3) and then to `[8, 16, 512, 512]` along all four
    reads, at `(b, c, r, s)`, the entry `B (b, r, s)`: the first broadcast puts `B` on channel 0, the second copies
    the unit channel axis to every channel.
  * Reshaping `B` to `[8, 1, 512, 512]` reads, at `(b, 0, r, s)`, the entry `B (b, r, s)`: the row-major position
    `((b·1 + 0)·512 + r)·512 + s` of `(b, 0, r, s)` is the position `(b·512 + r)·512 + s` of `(b, r, s)`.
-/
import Idealize.ShloMosaic.Lib.Pipeline.Value
import Idealize.ShloMosaic.Lib.ValueIdx

noncomputable section

namespace Cert.Channels

open Idealize.ShloMosaic Idealize.ShloMosaic.ValueIdx

/-- The array without a channel axis. -/
abbrev Plane : Shape := ⟨3, ![8, 512, 512]⟩
/-- The same array with a channel axis of extent one. -/
abbrev One : Shape := ⟨4, ![8, 1, 512, 512]⟩
/-- Sixteen channels. -/
abbrev Many : Shape := ⟨4, ![8, 16, 512, 512]⟩

variable {α : Type}

/-- Batch, row and column of a place in the sixteen-channel array: the channel coordinate forgotten. -/
def planeOfMany (i : Many.Idx) : Plane.Idx := ix3 (i 0) (i 2) (i 3)

/-- Batch, row and column of a place in the one-channel array. -/
def planeOfOne (j : One.Idx) : Plane.Idx := ix3 (j 0) (j 2) (j 3)

/-- Channel 0 of the one-channel array at the batch, row and column of a place in the sixteen-channel array. -/
def oneOfMany (i : Many.Idx) : One.Idx := ix4 (i 0) (0 : Fin 1) (i 2) (i 3)

theorem planeOfOne_oneOfMany (i : Many.Idx) : planeOfOne (oneOfMany i) = planeOfMany i := rfl

/-- The reshape `[8, 512, 512] → [8, 1, 512, 512]` at `(b, 0, r, s)` is the operand at `(b, r, s)`. -/
theorem reshape_apply (B : Plane.Idx → α) (h : Plane.ShapeCasts One) (j : One.Idx) :
    shapeCast One B h j = B (planeOfOne j) := by
  refine shapeCast_apply B h j (planeOfOne j) ?_
  rw [Shape.rowMajor_val_three, Shape.rowMajor_val_four]
  have h1 : (j 1).val < 1 := (j 1).isLt
  show ((j 0).val * 512 + (j 2).val) * 512 + (j 3).val
    = (((j 0).val * 1 + (j 1).val) * 512 + (j 2).val) * 512 + (j 3).val
  omega

/-- The two broadcasts `[8, 512, 512] → [8, 1, 512, 512] → [8, 16, 512, 512]` at `(b, c, r, s)` are the operand at
    `(b, r, s)`. -/
theorem broadcast_apply (B : Plane.Idx → α) (h1 : Plane.BroadcastsInDim One ![0, 2, 3])
    (h2 : One.BroadcastsInDim Many ![0, 1, 2, 3]) (i : Many.Idx) :
    broadcastInDim Many ![0, 1, 2, 3] h2 (broadcastInDim One ![0, 2, 3] h1 B) i = B (planeOfMany i) := by
  refine (broadcastInDim_apply _ h2 _ i (oneOfMany i) ?_).trans
    (broadcastInDim_apply _ h1 B (oneOfMany i) (planeOfMany i) ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl
    | ⟨2, _⟩ => rfl

end Cert.Channels

end
-- ==== Proof.KernelArray.lean ====
/-
  What the kernel's output array holds after the run, as one function of the one-channel array the region finds.

  The grid has 8 × 16 points `(b, ch)`. At a point the body copies its input block unchanged to its output block; the
  input block is block `(b, 0, 0, 0)` of the one-channel array `[8, 1, 512, 512]` — the whole plane of batch `b` — and
  the output block is block `(b, ch, 0, 0)` of the sixteen-channel array `[8, 16, 512, 512]` — the plane of batch `b`,
  channel `ch`. So the point writes, at place `(b, ch, r, s)`, the entry `(b, 0, r, s)` of the one-channel array.
  The 128 output blocks are the 128 (batch, channel) planes, which cover the array; hence after the run every place
  `(b, ch, r, s)` of the output holds the one-channel array's entry `(b, 0, r, s)`.
-/
import proofs.«149606_j65712999629447_1_alg».proof.Proof.Gen.KernelIdeal.Value
import proofs.«149606_j65712999629447_1_alg».proof.Proof.Channels

noncomputable section

namespace Cert.KernelIdeal.Copied

open Cert.KernelIdeal Cert.KernelIdeal.Gen Cert.KernelIdeal.Value Idealize.ShloMosaic Idealize.ShloMosaic.TcCoe Idealize.SL.Sem
open Idealize.ShloMosaic.Pipeline (Dat)
open Cert.Channels

variable {F : FTy → Type} [FloatOps F]
variable (m : (ℓ : Loc nD τ sig) → Buf (Elt F) ℓ) (ρ : Dev nD → PrngReg)

/-- The output array: every channel of batch `b` is the one plane the one-channel array has for batch `b`. -/
def copied (c : Dev nD) : S8x16x512x512.Idx → Elt F .f32 := fun i => V m c main_v148 (oneOfMany i)

theorem zero_offsets : (![0, 0, 0, 0] : Fin 4 → Nat) = fun _ => 0 := funext fun a => by fin_cases a <;> rfl

/-- The body leaves its input block in the output buffer: one load of the whole block, a reshape to the same shape, one
    store of the whole block. -/
theorem out_eq (x0 : Vec F S1x1x512x512 .f32) : out0_1 x0 = x0 := by
  unfold out0_1
  rw [View.canon_unit_zero zero_offsets]
  simp only [View.ld_unit_zero (S := S1x1x512x512) zero_offsets]
  exact shapeCast_self _ _

/-- The two index maps over the grid: the input block follows the output block's batch and stays at channel 0; neither
    moves along the rows or the columns. -/
theorem index_maps : ∀ t : Fin cfg0.N,
    win0_0.index t (0 : Fin 4) = win0_1.index t (0 : Fin 4)
    ∧ win0_0.index t (1 : Fin 4) = 0 ∧ win0_0.index t (2 : Fin 4) = 0 ∧ win0_0.index t (3 : Fin 4) = 0
    ∧ win0_1.index t (2 : Fin 4) = 0 ∧ win0_1.index t (3 : Fin 4) = 0 :=
  (by decide +kernel : ∀ t : Fin grid0.N, _)

/-- Every (batch, channel) plane is some point's output block. -/
theorem plane_of_some_point : ∀ (b : Fin 8) (ch : Fin 16), ∃ t : Fin cfg0.N, win0_1.index t = ![b.val, ch.val, 0, 0] :=
  (by decide +kernel : ∀ (b : Fin 8) (ch : Fin 16), ∃ t : Fin grid0.N, win0_1.index t = ![b.val, ch.val, 0, 0])

/-- What point `t` writes back is block `t` of `copied`. -/
theorem flushed_eq (c : Dev nD) (t : Fin cfg0.N) :
    (dats m 0 c).flushed 1 t = ((cfg0.win 1).blk t).view.read (Elt F) (copied m c) := by
  rw [flushed1, show out0_1 (iblk m c 0 t) = iblk m c 0 t from out_eq _]
  obtain ⟨e0, e1, e2, e3, e4, e5⟩ := index_maps t
  funext j
  show V m c main_v148 (((cfg0.win 0).blk t).view.emb j) = V m c main_v148 (oneOfMany (((cfg0.win 1).blk t).view.emb j))
  refine congrArg (V m c main_v148) ?_
  funext a; apply Fin.ext
  have h0 : (j 0).val < 1 := (j 0).isLt
  have h1 : (j 1).val < 1 := (j 1).isLt
  match a with
  | ⟨0, _⟩ => show win0_0.index t (0 : Fin 4) * 1 + 1 * (j 0).val = win0_1.index t (0 : Fin 4) * 1 + 1 * (j 0).val; omega
  | ⟨1, _⟩ => show win0_0.index t (1 : Fin 4) * 1 + 1 * (j 1).val = 0; omega
  | ⟨2, _⟩ => show win0_0.index t (2 : Fin 4) * 512 + 1 * (j 2).val = win0_1.index t (2 : Fin 4) * 512 + 1 * (j 2).val; omega
  | ⟨3, _⟩ => show win0_0.index t (3 : Fin 4) * 512 + 1 * (j 3).val = win0_1.index t (3 : Fin 4) * 512 + 1 * (j 3).val; omega

/-- A place of the output array is in point `t`'s block iff each coordinate is in the block's range on its axis. -/
theorem mem_block (t : Fin cfg0.N) (i : S8x16x512x512.Idx) :
    i ∈ ((cfg0.win 1).blk t).view.set ↔ ∀ a : Fin 4, win0_1.index t a * S1x1x512x512.size a ≤ (i a).val
      ∧ (i a).val < win0_1.index t a * S1x1x512x512.size a + S1x1x512x512.size a := by
  show i ∈ ((View.whole main_v149).slice (win0_1.rect t)).set ↔ _
  rw [View.set_slice_whole, Rect.mem_set_unit]
  exact Iff.rfl

/-- The output blocks cover the output array: place `(b, ch, r, s)` is in the block of the point whose output block is
    the plane `(b, ch)`. -/
theorem covered (i : S8x16x512x512.Idx) :
    ∃ t : Fin cfg0.N, (cfg0.win 1).flush t = true ∧ i ∈ ((cfg0.win 1).blk t).view.set := by
  have hi0 : (i 0).val < 8 := (i 0).isLt
  have hi1 : (i 1).val < 16 := (i 1).isLt
  have hi2 : (i 2).val < 512 := (i 2).isLt
  have hi3 : (i 3).val < 512 := (i 3).isLt
  obtain ⟨t, ht⟩ := plane_of_some_point ⟨(i 0).val, hi0⟩ ⟨(i 1).val, hi1⟩
  have q0 : win0_1.index t (0 : Fin 4) = (i 0).val := congrFun ht 0
  have q1 : win0_1.index t (1 : Fin 4) = (i 1).val := congrFun ht 1
  have q2 : win0_1.index t (2 : Fin 4) = 0 := congrFun ht 2
  have q3 : win0_1.index t (3 : Fin 4) = 0 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 1 ≤ (i 1).val ∧ (i 1).val < win0_1.index t (1 : Fin 4) * 1 + 1; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- The output array after the run is `copied`. -/
theorem final (c : Dev nD) : (dats m 0 c).arrAt 1 cfg0.N = copied m c :=
  (dats m 0 c).arrAt_eq_of_cover 1 (copied m c) (fun t _ => flushed_eq m c t) covered

/-- The kernel's run: it terminates without a fault, the result array is `copied`, the arguments are unchanged. -/
theorem run : θ_run defs (onTc (τ := τ) (main (F := F))) ⟨m, fun _ => 0, ρ⟩ fun r => ∀ c : Dev nD,
      r.2.mem ((c : Thread nD τ).loc main_v149) = copied m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Copied

end
-- ==== Proof.SharedPrefix.lean ====
/-
  The reference's result and the array the kernel's region reads are built from `inv_grid` by the same host operations.

  Both programs compute, by one and the same sequence of host operations on the argument `inv_grid` (the clamp of the
  two coordinates, their integer parts, the four corner weights, the four scatter-adds into the padded `[8, 515, 515]`
  grid, the slice of its interior), a plane array `[8, 512, 512]`; call it the density. They part only afterwards:
  the reference broadcasts the density to `[8, 1, 512, 512]` and then to `[8, 16, 512, 512]`; the kernel reshapes it
  to `[8, 1, 512, 512]` and hands that to its region. So the reference's result at `(b, ch, r, s)` and the kernel's
  one-channel array at `(b, 0, r, s)` are both the density at `(b, r, s)`.
-/
import proofs.«149606_j65712999629447_1_alg».proof.Proof.Gen.KernelIdeal.Frame
import proofs.«149606_j65712999629447_1_alg».proof.Proof.Gen.ReferenceIdeal.Run
import proofs.«149606_j65712999629447_1_alg».proof.Proof.Channels

noncomputable section

namespace Cert.SharedPrefix

open Idealize.ShloMosaic Idealize.ShloMosaic.TcCoe Idealize.SL.Sem Idealize.ShloMosaic.StableHlo
open Cert.Channels

variable {F : FTy → Type} [FloatOps F]

set_option maxRecDepth 16384 in
set_option maxHeartbeats 8000000 in
/-- The reference's result at a place `i` of the sixteen-channel array is what the kernel's region finds in its
    one-channel array at channel 0 of `i`'s batch, row and column: both are the density at that batch, row and column. -/
theorem reference_result_apply
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (i : Many.Idx) :
    Cert.ReferenceIdeal.Value.res_main_v149 m' c i
      = Cert.KernelIdeal.Gen.V m c Cert.KernelIdeal.main_v148 (oneOfMany i) := by
  unfold Cert.ReferenceIdeal.Value.res_main_v149
  refine (broadcast_apply _ _ _ i).trans ?_
  rw [h1]
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, List.flatten_cons, List.flatten_nil, List.append_nil, List.cons_append, List.nil_append]
  after_results_simp
  refine Eq.trans ?_ (reshape_apply _ _ (oneOfMany i)).symm
  rfl

end Cert.SharedPrefix

end
-- ==== Proof.lean ====
/-
  The kernel spreads a density plane over sixteen channels; so does the reference.

  Both programs compute from `inv_grid`, by the same host operations, a density `[8, 512, 512]` (a bilinear
  four-corner scatter-add of weights into a padded grid, its interior sliced out); `x` gives only its shape. The
  reference then broadcasts the density to `[8, 16, 512, 512]`: its result at `(b, ch, r, s)` is the density at
  `(b, r, s)`. The kernel reshapes the density to `[8, 1, 512, 512]` and runs a region over the 8 × 16 grid whose body
  copies the plane of batch `b` of that array to the plane of batch `b`, channel `ch` of the output: its result at
  `(b, ch, r, s)` is the reshaped array at `(b, 0, r, s)`, which is again the density at `(b, r, s)`. No arithmetic
  separates the two sides, so nothing is asked of the inputs beyond what the statement assumes, and the assumption is
  not used.

  * `Proof/Channels.lean`: the reshape and the pair of broadcasts, each read at an index.
  * `Proof/KernelArray.lean`: the kernel's output array after the run, from the blocks its grid points write.
  * `Proof/SharedPrefix.lean`: the reference's result and the kernel's one-channel array are the same function of
    `inv_grid`, index by index.
  The three frames are the generated ones (the reference's is its generated run with the result forgotten), and the
  kernel's idealization rewrote nothing, so there is nothing to preserve.
-/
import proofs.«149606_j65712999629447_1_alg».proof.Defs
import proofs.«149606_j65712999629447_1_alg».proof.Proof.Gen.Kernel
import proofs.«149606_j65712999629447_1_alg».proof.Proof.Gen.Kernel.Skeleton
import proofs.«149606_j65712999629447_1_alg».proof.Proof.Gen.Kernel.Launch
import proofs.«149606_j65712999629447_1_alg».proof.Proof.Gen.Kernel.Points
import proofs.«149606_j65712999629447_1_alg».proof.Proof.Gen.Kernel.Frame
import proofs.«149606_j65712999629447_1_alg».proof.Proof.Gen.KernelIdeal
import proofs.«149606_j65712999629447_1_alg».proof.Proof.Gen.KernelIdeal.Skeleton
import proofs.«149606_j65712999629447_1_alg».proof.Proof.Gen.KernelIdeal.Launch
import proofs.«149606_j65712999629447_1_alg».proof.Proof.Gen.KernelIdeal.Points
import proofs.«149606_j65712999629447_1_alg».proof.Proof.Gen.KernelIdeal.Frame
import proofs.«149606_j65712999629447_1_alg».proof.Proof.Gen.KernelIdeal.Value
import proofs.«149606_j65712999629447_1_alg».proof.Proof.Gen.ReferenceIdeal
import proofs.«149606_j65712999629447_1_alg».proof.Proof.Gen.ReferenceIdeal.Run
import proofs.«149606_j65712999629447_1_alg».proof.Proof.Gen.Pre_finite_inputs
import proofs.«149606_j65712999629447_1_alg».proof.Proof.KernelArray
import proofs.«149606_j65712999629447_1_alg».proof.Proof.SharedPrefix
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the same result array: at
    `(b, ch, r, s)` each holds the density at `(b, r, s)`. -/
theorem algebraic : Cert.algebraic_KernelIdeal_ReferenceIdeal := by
  intro m ρ m' ρ' _ hagree
  refine ⟨fun c => Cert.KernelIdeal.Copied.copied m c, Cert.KernelIdeal.Copied.run (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  exact Cert.SharedPrefix.reference_result_apply m m' c (hagree c).2 i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
